-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128x10 .f32) (main_arg7 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg6
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x512 .f32) (main_arg1 : IVec S1600000 32) (main_arg2 : IVec S1600000 32) (main_arg3 : FVec F S1600000 .f32) (main_arg4 : FVec F S512x128 .f32) (main_arg5 : FVec F S128 .f32) (main_arg6 : FVec F S128x10 .f32) (main_arg7 : FVec F S10 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100000x128 : Shape := ⟨2, ![100000, 128]⟩
abbrev S4000x512 : Shape := ⟨2, ![4000, 512]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S100000x10 : Shape := ⟨2, ![100000, 10]⟩
abbrev S4000x10 : Shape := ⟨2, ![4000, 10]⟩
abbrev S1x128 : Shape := ⟨2, ![1, 128]⟩
abbrev S1600000x10 : Shape := ⟨2, ![1600000, 10]⟩
abbrev S1x10 : Shape := ⟨2, ![1, 10]⟩

abbrev nBuf : Space → Nat
  | .hbm => 48
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S512x128, .bf16⟩
  | .hbm, ⟨9, _⟩ => ⟨S128x10, .bf16⟩
  | .hbm, ⟨10, _⟩ => ⟨S100000x128, .bf16⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .bf16⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x10, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x10, .f32⟩
  | .hbm, ⟨38, _⟩ => ⟨S1600000x1, .f32⟩
  | .hbm, ⟨39, _⟩ => ⟨S1600000x10, .f32⟩
  | .hbm, ⟨40, _⟩ => ⟨S1600000x10, .f32⟩
  | .hbm, ⟨41, _⟩ => ⟨S_, .f32⟩
  | .hbm, ⟨42, _⟩ => ⟨S100000x10, .f32⟩
  | .hbm, ⟨43, _⟩ => ⟨S1600000x1, .i32⟩
  | .hbm, ⟨44, _⟩ => ⟨S100000x10, .f32⟩
  | .hbm, ⟨45, _⟩ => ⟨S1x10, .f32⟩
  | .hbm, ⟨46, _⟩ => ⟨S100000x10, .f32⟩
  | .hbm, ⟨47, _⟩ => ⟨S100000x10, .f32⟩
  | .local _ .vmem, ⟨0, _⟩ => ⟨S4000x512, .f32⟩
  | .local _ .vmem, ⟨1, _⟩ => ⟨S4000x512, .f32⟩
  | .local _ .vmem, ⟨2, _⟩ => ⟨S512x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .f32⟩
  | .local _ .vmem, ⟨6, _⟩ => ⟨S4000x128, .f32⟩
  | .local _ .vmem, ⟨7, _⟩ => ⟨S128, .f32⟩
  | .local _ .vmem, ⟨8, _⟩ => ⟨S128x10, .bf16⟩
  | .local _ .vmem, ⟨9, _⟩ => ⟨S4000x10, .f32⟩
  | .local _ .vmem, ⟨10, _⟩ => ⟨S4000x10, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x10 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  inb_S4000x512_S4000x512_0_0 : ∀ a, (![0, 0] : Fin 2 → Nat) a + S4000x512.size a ≤ S4000x512.size a
  h_S4000x512 : 0 < S4000x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S4000x10_S4000x10_0_0 : ∀ a, (![0, 0] : Fin 2 → Nat) a + S4000x10.size a ≤ S4000x10.size a
  h_S4000x10 : 0 < S4000x10.numel
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S4000x512_S512x128_S4000x128_1_0_0_1_n_n_wf : DotDims.WF S4000x512 S512x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x10_S4000x10_1_0_0_1_n_n_wf : DotDims.WF S4000x128 S128x10 S4000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x10.size a ≤ S128x10.size a
  hwx1_2 : ∀ i : grid1.Coords, EltTy.bits .bf16 = 32 ∨ (Rect.block (s := S128x10) S128x10.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x10.size a ≤ S100000x10.size a
  hwx1_3 : ∀ i : grid1.Coords, EltTy.bits .f32 = 32 ∨ (Rect.block (s := S100000x10) S4000x10.size (cc1_transform_3 i) (hinb1_3 i)).WholeWords (EltTy.packing .f32)

variable [Facts₀]

def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x10_S4000x10_1_0_0_1_n_n : DotDims S4000x128 S128x10 S4000x10 where
  lhsContracting := [1]
  rhsContracting := [0]
  lhsNonContracting := [0]
  rhsNonContracting := [1]
  lhsBatch := []
  rhsBatch := []
  wf := dot_S4000x128_S128x10_S4000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S4000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x10 : Shape := ⟨2, ![128, 10]⟩
abbrev S10 : Shape := ⟨1, ![10]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x10 : Shape := ⟨2, ![100000, 10]⟩
abbrev S1600000x10 : Shape := ⟨2, ![1600000, 10]⟩
abbrev S1x10 : Shape := ⟨2, ![1, 10]⟩

abbrev nBuf : Space → Nat
  | .hbm => 51
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x10, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x10, .f32⟩
  | .hbm, ⟨42, _⟩ => ⟨S1600000x10, .f32⟩
  | .hbm, ⟨43, _⟩ => ⟨S1600000x10, .f32⟩
  | .hbm, ⟨44, _⟩ => ⟨S_, .f32⟩
  | .hbm, ⟨45, _⟩ => ⟨S100000x10, .f32⟩
  | .hbm, ⟨46, _⟩ => ⟨S1600000x1, .i32⟩
  | .hbm, ⟨47, _⟩ => ⟨S100000x10, .f32⟩
  | .hbm, ⟨48, _⟩ => ⟨S1x10, .f32⟩
  | .hbm, ⟨49, _⟩ => ⟨S100000x10, .f32⟩
  | .hbm, ⟨50, _⟩ => ⟨S100000x10, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x10_S100000x10_1_0_0_1_n_n_wf : DotDims.WF S100000x128 S128x10 S100000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

class Facts : Prop extends Facts₀ where

variable [Facts]
-- ==== Proof.KernelRun.lean ====
/-
  The idealized kernel program's run with its RESULT named. The program is two grid regions among three stretches of
  host operations; its buffer contents at the five segment boundaries are a fold from the launch memory
  (`Gen.W0` … `Gen.W5`). Every weakly fair execution terminates without a fault, and in the final state the
  result buffer holds the last boundary's contents `Gen.W5 m ρ c` at the result's reference, while the eight argument
  arrays are as launched. What those contents ARE, as a function of the arguments, is read in the value modules.
-/
import proofs.«128552_j70961449665143_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the five segments, its final state read at the result buffer as well as at the arguments: the
    last thread state holds every unscoped buffer at the last boundary's contents, and the result buffer is one of them. -/
theorem run_W5 : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.HostChain.lean ====
/-
  The host operations of the idealized kernel program, between and after its two grid regions, as three functions.
  `edgeSource`: the per-edge source node, a negative index wrapped by the node count. `gatherScale128`: for every
  edge the source node's row of the first layer's projection, scaled by the edge weight, added into the destination
  node's row of a zero [100000, 128] array. `gatherScale10`: the same with the second layer's [100000, 10]
  projection, then the output bias added to every row. The buffer contents at the program's segment boundaries are
  these functions of the contents one boundary earlier; argument buffers pass through every segment unchanged.
-/
import proofs.«128552_j70961449665143_2_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- Each edge's source node as a [1600000, 1] column of indices: a negative entry has the node count added. -/
def edgeSource (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The first layer's aggregation: rows of `S` gathered per edge, scaled by the edge weight, added per destination. -/
def gatherScale128 (S : (⟨S100000x128, .bf16⟩ : BufTy).Contents (Elt F)) (src dst : (⟨S1600000, .i32⟩ : BufTy).Contents (Elt F))
    (wgt : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (extf .f32 (Host.gather gather_S100000x128_S1600000x1_S1600000x128_1_0_n_n_0_1_1128 S (edgeSource src)) bitsLt_bf16_f32)
      (broadcastInDim S1600000x128 ![0, 1] bcast_S1600000x1_S1600000x128_0_1 (broadcastInDim S1600000x1 ![0] bcast_S1600000_S1600000x1_0 wgt)))

/-- The second layer's aggregation, and the output bias added to every row. -/
def gatherScale10 (S : (⟨S100000x10, .f32⟩ : BufTy).Contents (Elt F)) (src dst : (⟨S1600000, .i32⟩ : BufTy).Contents (Elt F))
    (wgt : (⟨S1600000, .f32⟩ : BufTy).Contents (Elt F)) (bias : (⟨S10, .f32⟩ : BufTy).Contents (Elt F)) : (⟨S100000x10, .f32⟩ : BufTy).Contents (Elt F) :=
  addf (Host.scatterAdd scatter_S100000x10_S1600000x1_S1600000x10_1_0_0_1
      (broadcastInDim S100000x10 ![] bcast_S_S100000x10 (constant S_ .f32 0x00000000#32))
      (broadcastInDim S1600000x1 ![0] bcast_S1600000_S1600000x1_0 dst)
      (mulf (Host.gather gather_S100000x10_S1600000x1_S1600000x10_1_0_n_n_0_1_110 S (edgeSource src))
        (broadcastInDim S1600000x10 ![0, 1] bcast_S1600000x1_S1600000x10_0_1 (broadcastInDim S1600000x1 ![0] bcast_S1600000_S1600000x1_0 wgt))))
    (broadcastInDim S100000x10 ![0, 1] bcast_S1x10_S100000x10_0_1 (broadcastInDim S1x10 ![1] bcast_S10_S1x10_1 bias))

variable (m : (ℓ : Loc nD τ sig) → Buf (Elt F) ℓ) (ρ : Dev nD → PrngReg)

/-! ## The last stretch: from the second region's exit to the result -/

theorem W5_result (c : Dev nD) : W5 m ρ c (Proc.devRef .tc main_v33)
    = gatherScale10 (W4 m ρ c (Proc.devRef .tc main_v17)) (W4 m ρ c (Proc.devRef .tc main_arg1)) (W4 m ρ c (Proc.devRef .tc main_arg2))
        (W4 m ρ c (Proc.devRef .tc main_arg3)) (W4 m ρ c (Proc.devRef .tc main_arg7)) := by
  show StableHlo.after hostOps2 (W4 m ρ c) (Proc.devRef .tc main_v33) = _
  after_results_simp
  rfl

/-! ## The middle stretch: from the first region's exit to the second region's entry -/

theorem W3_v16 (c : Dev nD) : W3 m ρ c (Proc.devRef .tc main_v16)
    = gatherScale128 (W2 m ρ c (Proc.devRef .tc main_v2)) (W2 m ρ c (Proc.devRef .tc main_arg1)) (W2 m ρ c (Proc.devRef .tc main_arg2))
        (W2 m ρ c (Proc.devRef .tc main_arg3)) := by
  show StableHlo.after hostOps1 (W2 m ρ c) (Proc.devRef .tc main_v16) = _
  after_results_simp
  rfl

/-- The buffers the middle stretch reads or passes on without writing. -/
theorem W3_arg1 (c : Dev nD) : W3 m ρ c (Proc.devRef .tc main_arg1) = W2 m ρ c (Proc.devRef .tc main_arg1) := by
  show StableHlo.after hostOps1 (W2 m ρ c) (Proc.devRef .tc main_arg1) = _
  after_results_simp
theorem W3_arg2 (c : Dev nD) : W3 m ρ c (Proc.devRef .tc main_arg2) = W2 m ρ c (Proc.devRef .tc main_arg2) := by
  show StableHlo.after hostOps1 (W2 m ρ c) (Proc.devRef .tc main_arg2) = _
  after_results_simp
theorem W3_arg3 (c : Dev nD) : W3 m ρ c (Proc.devRef .tc main_arg3) = W2 m ρ c (Proc.devRef .tc main_arg3) := by
  show StableHlo.after hostOps1 (W2 m ρ c) (Proc.devRef .tc main_arg3) = _
  after_results_simp
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp
theorem W3_arg7 (c : Dev nD) : W3 m ρ c (Proc.devRef .tc main_arg7) = W2 m ρ c (Proc.devRef .tc main_arg7) := by
  show StableHlo.after hostOps1 (W2 m ρ c) (Proc.devRef .tc main_arg7) = _
  after_results_simp
theorem W3_v1 (c : Dev nD) : W3 m ρ c (Proc.devRef .tc main_v1) = W2 m ρ c (Proc.devRef .tc main_v1) := by
  show StableHlo.after hostOps1 (W2 m ρ c) (Proc.devRef .tc main_v1) = _
  after_results_simp

/-! ## The regions' own arrays and the buffers they leave alone -/

theorem W4_v17 (c : Dev nD) : W4 m ρ c (Proc.devRef .tc main_v17) = (dat1 (V3 m ρ) c).arrAt 3 cfg1.N := W4_arr m ρ c 3
theorem W2_v2 (c : Dev nD) : W2 m ρ c (Proc.devRef .tc main_v2) = (dat0 (V1 m ρ) c).arrAt 2 cfg0.N := W2_arr m ρ c 2

theorem W4_arg1 (c : Dev nD) : W4 m ρ c (Proc.devRef .tc main_arg1) = W3 m ρ c (Proc.devRef .tc main_arg1) := W4_of_ne m ρ c main_arg1 (by decide)
theorem W4_arg2 (c : Dev nD) : W4 m ρ c (Proc.devRef .tc main_arg2) = W3 m ρ c (Proc.devRef .tc main_arg2) := W4_of_ne m ρ c main_arg2 (by decide)
theorem W4_arg3 (c : Dev nD) : W4 m ρ c (Proc.devRef .tc main_arg3) = W3 m ρ c (Proc.devRef .tc main_arg3) := W4_of_ne m ρ c main_arg3 (by decide)
theorem W4_arg7 (c : Dev nD) : W4 m ρ c (Proc.devRef .tc main_arg7) = W3 m ρ c (Proc.devRef .tc main_arg7) := W4_of_ne m ρ c main_arg7 (by decide)
theorem W2_arg1 (c : Dev nD) : W2 m ρ c (Proc.devRef .tc main_arg1) = W1 m ρ c (Proc.devRef .tc main_arg1) := W2_of_ne m ρ c main_arg1 (by decide)
theorem W2_arg2 (c : Dev nD) : W2 m ρ c (Proc.devRef .tc main_arg2) = W1 m ρ c (Proc.devRef .tc main_arg2) := W2_of_ne m ρ c main_arg2 (by decide)
theorem W2_arg3 (c : Dev nD) : W2 m ρ c (Proc.devRef .tc main_arg3) = W1 m ρ c (Proc.devRef .tc main_arg3) := W2_of_ne m ρ c main_arg3 (by decide)
theorem W2_arg5 (c : Dev nD) : W2 m ρ c (Proc.devRef .tc main_arg5) = W1 m ρ c (Proc.devRef .tc main_arg5) := W2_of_ne m ρ c main_arg5 (by decide)
theorem W2_arg7 (c : Dev nD) : W2 m ρ c (Proc.devRef .tc main_arg7) = W1 m ρ c (Proc.devRef .tc main_arg7) := W2_of_ne m ρ c main_arg7 (by decide)
theorem W2_v1 (c : Dev nD) : W2 m ρ c (Proc.devRef .tc main_v1) = W1 m ρ c (Proc.devRef .tc main_v1) := W2_of_ne m ρ c main_v1 (by decide)

/-! ## The first stretch: the two weight arrays change format, the other arguments are as launched -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp
theorem W1_arg1 (c : Dev nD) : W1 m ρ c (Proc.devRef .tc main_arg1) = m ((c : Thread nD τ).loc main_arg1) := by
  show StableHlo.after hostOps0 (W0 m ρ c) (Proc.devRef .tc main_arg1) = _
  after_results_simp
theorem W1_arg2 (c : Dev nD) : W1 m ρ c (Proc.devRef .tc main_arg2) = m ((c : Thread nD τ).loc main_arg2) := by
  show StableHlo.after hostOps0 (W0 m ρ c) (Proc.devRef .tc main_arg2) = _
  after_results_simp
theorem W1_arg3 (c : Dev nD) : W1 m ρ c (Proc.devRef .tc main_arg3) = m ((c : Thread nD τ).loc main_arg3) := by
  show StableHlo.after hostOps0 (W0 m ρ c) (Proc.devRef .tc main_arg3) = _
  after_results_simp
theorem W1_arg5 (c : Dev nD) : W1 m ρ c (Proc.devRef .tc main_arg5) = m ((c : Thread nD τ).loc main_arg5) := by
  show StableHlo.after hostOps0 (W0 m ρ c) (Proc.devRef .tc main_arg5) = _
  after_results_simp
theorem W1_arg7 (c : Dev nD) : W1 m ρ c (Proc.devRef .tc main_arg7) = m ((c : Thread nD τ).loc main_arg7) := by
  show StableHlo.after hostOps0 (W0 m ρ c) (Proc.devRef .tc main_arg7) = _
  after_results_simp

theorem W1_v0 (c : Dev nD) : W1 m ρ c (Proc.devRef .tc main_v0) = truncf .bf16 (m ((c : Thread nD τ).loc main_arg4)) bitsLt_bf16_f32 := by
  show StableHlo.after hostOps0 (W0 m ρ c) (Proc.devRef .tc main_v0) = _
  after_results_simp
theorem W1_v1 (c : Dev nD) : W1 m ρ c (Proc.devRef .tc main_v1) = truncf .bf16 (m ((c : Thread nD τ).loc main_arg6)) bitsLt_bf16_f32 := by
  show StableHlo.after hostOps0 (W0 m ρ c) (Proc.devRef .tc main_v1) = _
  after_results_simp

end Cert.KernelIdeal.HostSide

end
-- ==== Proof.Region0.lean ====
/-
  Region 0 of the idealized kernel: the first dense layer's projection, tiled over the rows.
  The grid has 25 points; point t loads rows 4000·t … 4000·t + 3999 of the [100000, 512] input and the whole [512, 128]
  weight, multiplies them on the matrix unit into a zero accumulator and writes the [4000, 128] product back as rows
  4000·t … of the [100000, 128] output. Over the extended reals a change of float format is the identity, so the
  output array ends holding, at (r, c), the sum over k of input (r, k) times weight (k, c): `rowsTimes`.
-/
import proofs.«128552_j70961449665143_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

/-- The index (row of `i`, k) of a [100000, 512] array. -/
abbrev inAt (i : S100000x128.Idx) (k : Fin 512) : S100000x512.Idx := fun a => match a with
  | ⟨0, _⟩ => ⟨(i 0).val, (i 0).isLt⟩
  | ⟨1, _⟩ => ⟨k.val, k.isLt⟩
/-- The index (k, column of `i`) of a [512, 128] array. -/
abbrev wAt (i : S100000x128.Idx) (k : Fin 512) : S512x128.Idx := fun a => match a with
  | ⟨0, _⟩ => ⟨k.val, k.isLt⟩
  | ⟨1, _⟩ => ⟨(i 1).val, (i 1).isLt⟩

/-- Rows times columns: entry (r, c) is the sum over k of X (r, k) · W (k, c). -/
def rowsTimes (X : S100000x512.Idx → EReal) (Wm : S512x128.Idx → EReal) : S100000x128.Idx → EReal :=
  fun i => ∑ k : Fin 512, X (inAt i k) * Wm (wAt i k)

/-! ## The body's product at an index of the block -/

/-- The same two indices inside one [4000, 512] block and the weight. -/
abbrev binAt (j : S4000x128.Idx) (k : Fin 512) : S4000x512.Idx := fun a => match a with
  | ⟨0, _⟩ => ⟨(j 0).val, (j 0).isLt⟩
  | ⟨1, _⟩ => ⟨k.val, k.isLt⟩
abbrev bwAt (j : S4000x128.Idx) (k : Fin 512) : S512x128.Idx := fun a => match a with
  | ⟨0, _⟩ => ⟨k.val, k.isLt⟩
  | ⟨1, _⟩ => ⟨(j 1).val, (j 1).isLt⟩

abbrev D0 := dot_S4000x512_S512x128_S4000x128_1_0_0_1_n_n

theorem lhs0 (i : S4000x128.Idx) (q : D0.contr.Idx) : (D0.lhsIdx i q 0).val = (i 0).val := by
  unfold DotDims.lhsIdx
  rw [dif_neg (show ¬(0 : Fin S4000x512.rank) ∈ D0.lhsBatch by decide), dif_pos (show (0 : Fin S4000x512.rank) ∈ D0.lhsNonContracting by decide)]
  rfl
theorem lhs1 (i : S4000x128.Idx) (q : D0.contr.Idx) : (D0.lhsIdx i q 1).val = (q ⟨0, by decide⟩).val :=
  D0.lhsIdx_val_of_single rfl i q
theorem rhs0 (i : S4000x128.Idx) (q : D0.contr.Idx) : (D0.rhsIdx i q 0).val = (q ⟨0, by decide⟩).val :=
  D0.rhsIdx_val_of_single rfl i q
theorem rhs1 (i : S4000x128.Idx) (q : D0.contr.Idx) : (D0.rhsIdx i q 1).val = (i 1).val := by
  unfold DotDims.rhsIdx
  rw [dif_neg (show ¬(1 : Fin S512x128.rank) ∈ D0.rhsBatch by decide), dif_pos (show (1 : Fin S512x128.rank) ∈ D0.rhsNonContracting by decide)]
  rfl

/-- The block the body stores, at an index: the matrix unit's contraction into a zero accumulator is the plain sum over
    the 512 contracted coordinates, and the two format changes around it are identities. -/
theorem pay_apply (x0 : Vec Ideal S4000x512 .f32) (x1 : Vec Ideal S512x128 .bf16) (j : S4000x128.Idx) :
    k0_pay1 (F := Ideal) x0 x1 j = ∑ k : Fin 512, x0 (binAt j k) * x1 (bwAt j k) := by
  unfold k0_pay1
  refine (Ideal.matmul_constant_zero_apply D0 none (truncf .bf16 x0 bitsLt_bf16_f32) (shapeCast S512x128 x1 shapeCasts_S512x128_S512x128) j).trans ?_
  rw [← Equiv.sum_comp (ValueIdx.contrEquiv1 D0 512 rfl rfl).symm]
  refine Finset.sum_congr rfl fun k _ => ?_
  have hk := ValueIdx.contrEquiv1_symm_val D0 512 rfl rfl k
  have el : D0.lhsIdx j ((ValueIdx.contrEquiv1 D0 512 rfl rfl).symm k) = binAt j k := funext fun a => Fin.ext (by
    match a with
    | ⟨0, _⟩ => exact lhs0 _ _
    | ⟨1, _⟩ => exact (lhs1 _ _).trans hk)
  have er : D0.rhsIdx j ((ValueIdx.contrEquiv1 D0 512 rfl rfl).symm k) = bwAt j k := funext fun a => Fin.ext (by
    match a with
    | ⟨0, _⟩ => exact (rhs0 _ _).trans hk
    | ⟨1, _⟩ => exact rhs1 _ _)
  rw [el, er, shapeCast_self]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the input's and the output's block row is the point's number,
    every other block index is zero. -/
theorem block_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t` is rows 4000·t … of the input array. -/
theorem in_block (c : Dev nD) (t : Fin cfg0.N) (y : S4000x512.Idx) (k : S100000x512.Idx)
    (h0 : (k 0).val = t.val * 4000 + (y 0).val) (h1 : (k 1).val = (y 1).val) :
    (iblk0 V c 0 t : Vec Ideal S4000x512 .f32) y = (V c main_arg0 : S100000x512.Idx → EReal) k := by
  obtain ⟨e0, e1, -⟩ := block_rows t
  unfold iblk0
  rw [View.read_apply]
  show V c main_arg0 _ = V c main_arg0 _
  congr 1
  funext a
  apply Fin.ext
  match a with
  | ⟨0, _⟩ => show win0_0.index t 0 * 4000 + 1 * (y 0).val = (k 0).val; rw [e0, h0]; omega
  | ⟨1, _⟩ => show win0_0.index t 1 * 512 + 1 * (y 1).val = (k 1).val; rw [e1, h1]; omega

/-- The weight block at every point is the whole weight array. -/
theorem w_block (c : Dev nD) (t : Fin cfg0.N) (y : S512x128.Idx) (k : S512x128.Idx)
    (h0 : (k 0).val = (y 0).val) (h1 : (k 1).val = (y 1).val) :
    (iblk0 V c 1 t : Vec Ideal S512x128 .bf16) y = (V c main_v0 : S512x128.Idx → EReal) k := by
  obtain ⟨-, -, e2, e3, -⟩ := block_rows t
  unfold iblk0
  rw [View.read_apply]
  show V c main_v0 _ = V c main_v0 _
  congr 1
  funext a
  apply Fin.ext
  match a with
  | ⟨0, _⟩ => show win0_1.index t 0 * 512 + 1 * (y 0).val = (k 0).val; rw [e2, h0]; omega
  | ⟨1, _⟩ => show win0_1.index t 1 * 128 + 1 * (y 1).val = (k 1).val; rw [e3, h1]; omega

/-- What point `t` writes back is block `t` of `rowsTimes` of the arrays the region finds. -/
theorem flushed_eq (c : Dev nD) (t : Fin cfg0.N) :
    (dat0 V c).flushed 2 t = ((cfg0.win 2).blk t).view.read (Elt Ideal) (rowsTimes (V c main_arg0) (V c main_v0)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x128) hz]
  obtain ⟨-, -, -, -, e4, e5⟩ := block_rows t
  funext j
  rw [View.read_apply]
  refine (pay_apply (iblk0 V c 0 t) (iblk0 V c 1 t) _).trans ?_
  unfold rowsTimes
  refine Finset.sum_congr rfl fun k _ => ?_
  refine congrArg₂ (· * ·) ?_ ?_
  · refine in_block V c t _ _ ?_ rfl
    show win0_2.index t 0 * 4000 + 1 * (j 0).val = t.val * 4000 + (j 0).val
    rw [e4]; omega
  · refine w_block V c t _ _ rfl ?_
    show win0_2.index t 1 * 128 + 1 * (j 1).val = (j 1).val
    rw [e5]; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v2).slice (win0_2.rect t)).set ↔ _
  rw [View.set_slice_whole, Rect.mem_set_unit]
  exact Iff.rfl

/-- Row r of the output lies in the block of point r / 4000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, e4, e5⟩ := block_rows ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ 0 * 4000 ≤ (i 0).val ∧ (i 0).val < win0_2.index ⟨(i 0).val / 4000, ht⟩ 0 * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ 1 * 128 ≤ (i 1).val ∧ (i 1).val < win0_2.index ⟨(i 0).val / 4000, ht⟩ 1 * 128 + 128
    rw [e5]; omega

/-- The output array after the region: `rowsTimes` of the input and the weight as the region found them. -/
theorem final (c : Dev nD) : (dat0 V c).arrAt 2 cfg0.N = rowsTimes (V c main_arg0) (V c main_v0) :=
  (dat0 V c).arrAt_eq_of_cover 2 (rowsTimes (V c main_arg0) (V c main_v0)) (fun t _ => flushed_eq V c t) cover

end Cert.KernelIdeal.Region0

end
-- ==== Proof.Region1.lean ====
/-
  Region 1 of the idealized kernel: bias, rectifier and the second dense layer's projection, tiled over the rows.
  The grid has 25 points; point t loads rows 4000·t … 4000·t + 3999 of the [100000, 128] aggregate, the whole [128] bias
  and the whole [128, 10] weight, adds the bias to every row, takes the maximum with zero, multiplies by the weight on
  the matrix unit into a zero accumulator and writes the [4000, 10] product back as rows 4000·t … of the [100000, 10]
  output. Over the extended reals the output array ends holding, at (r, c), the sum over k of
  max (aggregate (r, k) + bias k, 0) · weight (k, c): `biasReluTimes`.
-/
import proofs.«128552_j70961449665143_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-- Bias, rectifier, then rows times columns: entry (r, c) is the sum over k of max (A (r, k) + b k, 0) · W (k, c).
    The zero is kept as the float word the programs print. -/
def biasReluTimes (A : S100000x128.Idx → EReal) (b : S128.Idx → EReal) (Wm : S128x10.Idx → EReal) : S100000x10.Idx → EReal :=
  fun i => ∑ k : Fin 128, max (A (ix2 (⟨(i 0).val, (i 0).isLt⟩ : Fin 100000) k) + b (ix1 k)) (Ideal.ofBits .f32 0x00000000#32)
    * Wm (ix2 k (⟨(i 1).val, (i 1).isLt⟩ : Fin 10))

/-! ## The body's product at an index of the block -/

/-- (row of `j`, k) inside one [4000, 128] block, and (k, column of `j`) in the weight. -/
abbrev hAt (j : S4000x10.Idx) (k : Fin 128) : S4000x128.Idx := ix2 (⟨(j 0).val, (j 0).isLt⟩ : Fin 4000) k
abbrev w2At (j : S4000x10.Idx) (k : Fin 128) : S128x10.Idx := ix2 k (⟨(j 1).val, (j 1).isLt⟩ : Fin 10)

abbrev D1 := dot_S4000x128_S128x10_S4000x10_1_0_0_1_n_n

theorem lhs0 (i : S4000x10.Idx) (q : D1.contr.Idx) : (D1.lhsIdx i q 0).val = (i 0).val := by
  unfold DotDims.lhsIdx
  rw [dif_neg (show ¬(0 : Fin S4000x128.rank) ∈ D1.lhsBatch by decide), dif_pos (show (0 : Fin S4000x128.rank) ∈ D1.lhsNonContracting by decide)]
  rfl
theorem lhs1 (i : S4000x10.Idx) (q : D1.contr.Idx) : (D1.lhsIdx i q 1).val = (q ⟨0, by decide⟩).val :=
  D1.lhsIdx_val_of_single rfl i q
theorem rhs0 (i : S4000x10.Idx) (q : D1.contr.Idx) : (D1.rhsIdx i q 0).val = (q ⟨0, by decide⟩).val :=
  D1.rhsIdx_val_of_single rfl i q
theorem rhs1 (i : S4000x10.Idx) (q : D1.contr.Idx) : (D1.rhsIdx i q 1).val = (i 1).val := by
  unfold DotDims.rhsIdx
  rw [dif_neg (show ¬(1 : Fin S128x10.rank) ∈ D1.rhsBatch by decide), dif_pos (show (1 : Fin S128x10.rank) ∈ D1.rhsNonContracting by decide)]
  rfl

/-- The block the body stores, at an index: the matrix unit's contraction into a zero accumulator is the plain sum over
    the 128 contracted coordinates; its left factor is the loaded block plus the bias row, cut below at zero. -/
theorem pay_apply (x0 : Vec Ideal S4000x128 .f32) (x1 : Vec Ideal S128 .f32) (x2 : Vec Ideal S128x10 .bf16) (j : S4000x10.Idx) :
    k1_pay1 (F := Ideal) x0 x1 x2 j
      = ∑ k : Fin 128, max (x0 (hAt j k) + x1 (ix1 k)) (Ideal.ofBits .f32 0x00000000#32) * x2 (w2At j k) := by
  unfold k1_pay1
  refine (Ideal.matmul_constant_zero_apply D1 none
    (truncf .bf16 (maximumf (addf (shapeCast S4000x128 x0 shapeCasts_S4000x128_S4000x128)
      (broadcastTo S4000x128 (shapeCast S1x128 x1 shapeCasts_S128_S1x128) broadcasts_S1x128_S4000x128))
      (broadcast S4000x128 (Scalar.ofBits .f32 0x00000000#32))) bitsLt_bf16_f32)
    (shapeCast S128x10 x2 shapeCasts_S128x10_S128x10) j).trans ?_
  rw [← Equiv.sum_comp (ValueIdx.contrEquiv1 D1 128 rfl rfl).symm]
  refine Finset.sum_congr rfl fun k _ => ?_
  have hk := ValueIdx.contrEquiv1_symm_val D1 128 rfl rfl k
  have el : D1.lhsIdx j ((ValueIdx.contrEquiv1 D1 128 rfl rfl).symm k) = hAt j k := funext fun a => Fin.ext (by
    match a with
    | ⟨0, _⟩ => exact lhs0 _ _
    | ⟨1, _⟩ => exact (lhs1 _ _).trans hk)
  have er : D1.rhsIdx j ((ValueIdx.contrEquiv1 D1 128 rfl rfl).symm k) = w2At j k := funext fun a => Fin.ext (by
    match a with
    | ⟨0, _⟩ => exact (rhs0 _ _).trans hk
    | ⟨1, _⟩ => exact rhs1 _ _)
  rw [el, er, shapeCast_self, shapeCast_self]
  refine congrArg (· * x2 (w2At j k)) ?_
  show max (x0 (hAt j k)
      + broadcastTo S4000x128 (shapeCast S1x128 x1 shapeCasts_S128_S1x128) broadcasts_S1x128_S4000x128 (hAt j k))
    (Ideal.ofBits .f32 0x00000000#32) = _
  rw [ValueIdx.broadcastTo_1b_ab_apply, ValueIdx.shapeCast_a_1a_apply]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the 25 grid points: the aggregate's and the output's block row is the point's number,
    every other block index is zero. -/
theorem block_rows : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point `t` is rows 4000·t … of the aggregate. -/
theorem agg_block (c : Dev nD) (t : Fin cfg1.N) (y : S4000x128.Idx) (k : S100000x128.Idx)
    (h0 : (k 0).val = t.val * 4000 + (y 0).val) (h1 : (k 1).val = (y 1).val) :
    (iblk1 V c 0 t : Vec Ideal S4000x128 .f32) y = (V c main_v16 : S100000x128.Idx → EReal) k := by
  obtain ⟨e0, e1, -⟩ := block_rows t
  unfold iblk1
  rw [View.read_apply]
  show V c main_v16 _ = V c main_v16 _
  congr 1
  funext a
  apply Fin.ext
  match a with
  | ⟨0, _⟩ => show win1_0.index t 0 * 4000 + 1 * (y 0).val = (k 0).val; rw [e0, h0]; omega
  | ⟨1, _⟩ => show win1_0.index t 1 * 128 + 1 * (y 1).val = (k 1).val; rw [e1, h1]; omega

/-- The bias block at every point is the whole bias. -/
theorem bias_block (c : Dev nD) (t : Fin cfg1.N) (y : S128.Idx) (k : S128.Idx) (h0 : (k 0).val = (y 0).val) :
    (iblk1 V c 1 t : Vec Ideal S128 .f32) y = (V c main_arg5 : S128.Idx → EReal) k := by
  obtain ⟨-, -, e2, -⟩ := block_rows t
  unfold iblk1
  rw [View.read_apply]
  show V c main_arg5 _ = V c main_arg5 _
  congr 1
  funext a
  apply Fin.ext
  match a with
  | ⟨0, _⟩ => show win1_1.index t 0 * 128 + 1 * (y 0).val = (k 0).val; rw [e2, h0]; omega

/-- The weight block at every point is the whole weight array. -/
theorem w_block (c : Dev nD) (t : Fin cfg1.N) (y : S128x10.Idx) (k : S128x10.Idx)
    (h0 : (k 0).val = (y 0).val) (h1 : (k 1).val = (y 1).val) :
    (iblk1 V c 2 t : Vec Ideal S128x10 .bf16) y = (V c main_v1 : S128x10.Idx → EReal) k := by
  obtain ⟨-, -, -, e3, e4, -⟩ := block_rows t
  unfold iblk1
  rw [View.read_apply]
  show V c main_v1 _ = V c main_v1 _
  congr 1
  funext a
  apply Fin.ext
  match a with
  | ⟨0, _⟩ => show win1_2.index t 0 * 128 + 1 * (y 0).val = (k 0).val; rw [e3, h0]; omega
  | ⟨1, _⟩ => show win1_2.index t 1 * 10 + 1 * (y 1).val = (k 1).val; rw [e4, h1]; omega

/-- What point `t` writes back is block `t` of `biasReluTimes` of the arrays the region finds. -/
theorem flushed_eq (c : Dev nD) (t : Fin cfg1.N) :
    (dat1 V c).flushed 3 t
      = ((cfg1.win 3).blk t).view.read (Elt Ideal) (biasReluTimes (V c main_v16) (V c main_arg5) (V c main_v1)) := by
  show (cfg1.win 3).cut (grid1.coords t) ((dat1 V c).after 3 t) = _
  rw [after1_3]
  unfold out1_3
  rw [View.canon_unit_zero hz2]
  simp only [View.ld_unit_zero (S := S4000x128) hz2, View.ld_unit_zero (S := S128) hz1, View.ld_unit_zero (S := S128x10) hz2]
  obtain ⟨-, -, -, -, -, e5, e6⟩ := block_rows t
  funext j
  rw [View.read_apply]
  refine (pay_apply (iblk1 V c 0 t) (iblk1 V c 1 t) (iblk1 V c 2 t) _).trans ?_
  unfold biasReluTimes
  refine Finset.sum_congr rfl fun k _ => ?_
  refine congrArg₂ (· * ·) (congrArg₂ max (congrArg₂ (· + ·) ?_ ?_) rfl) ?_
  · refine agg_block V c t _ _ ?_ rfl
    show win1_3.index t 0 * 4000 + 1 * (j 0).val = t.val * 4000 + (j 0).val
    rw [e5]; omega
  · exact bias_block V c t _ _ rfl
  · refine w_block V c t _ _ rfl ?_
    show win1_3.index t 1 * 10 + 1 * (j 1).val = (j 1).val
    rw [e6]; omega

/-- An index of the output array is in point `t`'s block iff each coordinate is in the block's range on its axis. -/
theorem mem_blk (t : Fin cfg1.N) (i : S100000x10.Idx) :
    i ∈ ((cfg1.win 3).blk t).view.set ↔ ∀ a : Fin 2, win1_3.index t a * S4000x10.size a ≤ (i a).val ∧ (i a).val < win1_3.index t a * S4000x10.size a + S4000x10.size a := by
  show i ∈ ((View.whole main_v17).slice (win1_3.rect t)).set ↔ _
  rw [View.set_slice_whole, Rect.mem_set_unit]
  exact Iff.rfl

/-- Row r of the output lies in the block of point r / 4000. -/
theorem cover (i : S100000x10.Idx) : ∃ t : Fin cfg1.N, (cfg1.win 3).flush t = true ∧ i ∈ ((cfg1.win 3).blk t).view.set := by
  have hi0 : (i 0).val < 100000 := (i 0).isLt
  have hi1 : (i 1).val < 10 := (i 1).isLt
  have hN : cfg1.N = 25 := N_1
  have ht : (i 0).val / 4000 < cfg1.N := by rw [hN]; omega
  obtain ⟨-, -, -, -, -, e5, e6⟩ := block_rows ⟨(i 0).val / 4000, ht⟩
  refine ⟨⟨(i 0).val / 4000, ht⟩, flush1_3 _, ?_⟩
  rw [mem_blk]
  intro a
  match a with
  | ⟨0, _⟩ =>
    show win1_3.index ⟨(i 0).val / 4000, ht⟩ 0 * 4000 ≤ (i 0).val ∧ (i 0).val < win1_3.index ⟨(i 0).val / 4000, ht⟩ 0 * 4000 + 4000
    rw [e5]; show (i 0).val / 4000 * 4000 ≤ (i 0).val ∧ (i 0).val < (i 0).val / 4000 * 4000 + 4000; omega
  | ⟨1, _⟩ =>
    show win1_3.index ⟨(i 0).val / 4000, ht⟩ 1 * 10 ≤ (i 1).val ∧ (i 1).val < win1_3.index ⟨(i 0).val / 4000, ht⟩ 1 * 10 + 10
    rw [e6]; omega

/-- The output array after the region: `biasReluTimes` of the aggregate, the bias and the weight as the region found them. -/
theorem final (c : Dev nD) : (dat1 V c).arrAt 3 cfg1.N = biasReluTimes (V c main_v16) (V c main_arg5) (V c main_v1) :=
  (dat1 V c).arrAt_eq_of_cover 3 (biasReluTimes (V c main_v16) (V c main_arg5) (V c main_v1)) (fun t _ => flushed_eq V c t) cover

end Cert.KernelIdeal.Region1

end
-- ==== Proof.KernelValue.lean ====
/-
  The idealized kernel program's result as one function of its eight arguments. Reading the boundary contents back
  from the last to the first: the result is the second aggregation (with the output bias) of the second region's
  array; that array is bias, rectifier and projection of the first aggregation; the first aggregation gathers the
  first region's array; and the first region's array is the input times the first weight. The two weights reach the
  regions through a change of float format, which over the extended reals changes nothing.
-/
import proofs.«128552_j70961449665143_2_alg».proof.Proof.HostChain
import proofs.«128552_j70961449665143_2_alg».proof.Proof.Region0
import proofs.«128552_j70961449665143_2_alg».proof.Proof.Region1

set_option maxRecDepth 16384

noncomputable section

namespace Cert.KernelIdeal.Whole

open Cert.KernelIdeal Cert.KernelIdeal.Gen Cert.KernelIdeal.HostSide
open Idealize.ShloMosaic Idealize.ShloMosaic.TcCoe Idealize.SL.Sem

/-- The kernel program as one function of its arguments, over the extended reals. -/
def out (x : (⟨S100000x512, .f32⟩ : BufTy).Contents (Elt Ideal)) (src dst : (⟨S1600000, .i32⟩ : BufTy).Contents (Elt Ideal))
    (wgt : (⟨S1600000, .f32⟩ : BufTy).Contents (Elt Ideal)) (w1 : (⟨S512x128, .f32⟩ : BufTy).Contents (Elt Ideal))
    (b1 : (⟨S128, .f32⟩ : BufTy).Contents (Elt Ideal)) (w2 : (⟨S128x10, .f32⟩ : BufTy).Contents (Elt Ideal))
    (b2 : (⟨S10, .f32⟩ : BufTy).Contents (Elt Ideal)) : (⟨S100000x10, .f32⟩ : BufTy).Contents (Elt Ideal) :=
  gatherScale10 (F := Ideal)
    (Region1.biasReluTimes (gatherScale128 (F := Ideal) (Region0.rowsTimes x w1) src dst wgt) b1 w2)
    src dst wgt b2

variable (m : (ℓ : Loc nD τ sig) → Buf (Elt Ideal) ℓ) (ρ : Dev nD → PrngReg)

/-- The first region's output array: the input times the first weight. -/
theorem projected (c : Dev nD) : W2 m ρ c (Proc.devRef .tc main_v2)
    = Region0.rowsTimes (m ((c : Thread nD τ).loc main_arg0)) (m ((c : Thread nD τ).loc main_arg4)) := by
  rw [W2_v2, Region0.final (V1 m ρ) c]
  show Region0.rowsTimes (W1 m ρ c (Proc.devRef .tc main_arg0)) (W1 m ρ c (Proc.devRef .tc main_v0)) = _
  rw [W1_arg0, W1_v0]
  rfl

/-- The second region's input array: the first aggregation of that product. -/
theorem aggregated (c : Dev nD) : W3 m ρ c (Proc.devRef .tc main_v16)
    = gatherScale128 (F := Ideal) (Region0.rowsTimes (m ((c : Thread nD τ).loc main_arg0)) (m ((c : Thread nD τ).loc main_arg4)))
        (m ((c : Thread nD τ).loc main_arg1)) (m ((c : Thread nD τ).loc main_arg2)) (m ((c : Thread nD τ).loc main_arg3)) := by
  rw [W3_v16, projected, W2_arg1, W2_arg2, W2_arg3, W1_arg1, W1_arg2, W1_arg3]

/-- The second region's output array. -/
theorem projected2 (c : Dev nD) : W4 m ρ c (Proc.devRef .tc main_v17)
    = Region1.biasReluTimes
        (gatherScale128 (F := Ideal) (Region0.rowsTimes (m ((c : Thread nD τ).loc main_arg0)) (m ((c : Thread nD τ).loc main_arg4)))
          (m ((c : Thread nD τ).loc main_arg1)) (m ((c : Thread nD τ).loc main_arg2)) (m ((c : Thread nD τ).loc main_arg3)))
        (m ((c : Thread nD τ).loc main_arg5)) (m ((c : Thread nD τ).loc main_arg6)) := by
  rw [W4_v17, Region1.final (V3 m ρ) c]
  show Region1.biasReluTimes (W3 m ρ c (Proc.devRef .tc main_v16)) (W3 m ρ c (Proc.devRef .tc main_arg5)) (W3 m ρ c (Proc.devRef .tc main_v1)) = _
  rw [aggregated, W3_arg5, W2_arg5, W1_arg5, W3_v1, W2_v1, W1_v1]
  rfl

/-- The result buffer's final contents: `out` of the launch contents of the arguments. -/
theorem result_eq (c : Dev nD) : W5 m ρ c (Proc.devRef .tc main_v33)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [W5_result, projected2, W4_arg1, W4_arg2, W4_arg3, W4_arg7, W3_arg1, W3_arg2, W3_arg3, W3_arg7,
    W2_arg1, W2_arg2, W2_arg3, W2_arg7, W1_arg1, W1_arg2, W1_arg3, W1_arg7]
  rfl

end Cert.KernelIdeal.Whole

end
-- ==== Proof.RefSide.lean ====
/-
  The idealized reference, restated. Its run ends with the result at one composed term of the arguments; here that
  term is cut into the same pieces as the kernel program's: a dense projection (the host's dot product), the
  edge aggregation `gatherScale128` (gather the source rows, scale by the edge weight, add per destination), the
  hidden layer `hidden` (add the bias, cut below at zero), the second projection, and the second aggregation with
  the output bias `gatherScale10`. The reference multiplies "weight times row" where the kernel program multiplies
  "row times weight"; otherwise the host operations are the same ones.
-/
import proofs.«128552_j70961449665143_2_alg».proof.Defs
import proofs.«128552_j70961449665143_2_alg».proof.Proof.Gen.ReferenceIdeal.Run
import proofs.«128552_j70961449665143_2_alg».proof.Proof.Gen.ReferenceIdeal.Read

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo

variable {F : FTy → Type} [FloatOps F]

/-- Each edge's source node as a [1600000, 1] column of indices: a negative entry has the node count added. -/
def edgeSource (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The first layer's aggregation: rows of `S` gathered per edge, scaled by the edge weight, added per destination. -/
def gatherScale128 (S : (⟨S100000x128, .f32⟩ : BufTy).Contents (Elt F)) (src dst : (⟨S1600000, .i32⟩ : BufTy).Contents (Elt F))
    (wgt : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (broadcastInDim S1600000x128 ![0, 1] bcast_S1600000x1_S1600000x128_0_1 (broadcastInDim S1600000x1 ![0] bcast_S1600000_S1600000x1_0 wgt))
      (Host.gather gather_S100000x128_S1600000x1_S1600000x128_1_0_n_n_0_1_1128 S (edgeSource src)))

/-- The hidden layer: the bias added to every row, then the maximum with zero. -/
def hidden (A : (⟨S100000x128, .f32⟩ : BufTy).Contents (Elt F)) (bias : (⟨S128, .f32⟩ : BufTy).Contents (Elt F)) :
    (⟨S100000x128, .f32⟩ : BufTy).Contents (Elt F) :=
  maximumf (addf A (broadcastInDim S100000x128 ![0, 1] bcast_S1x128_S100000x128_0_1 (broadcastInDim S1x128 ![1] bcast_S128_S1x128_1 bias)))
    (broadcastInDim S100000x128 ![] bcast_S_S100000x128 (constant S_ .f32 0x00000000#32))

/-- The second layer's aggregation, and the output bias added to every row. -/
def gatherScale10 (S : (⟨S100000x10, .f32⟩ : BufTy).Contents (Elt F)) (src dst : (⟨S1600000, .i32⟩ : BufTy).Contents (Elt F))
    (wgt : (⟨S1600000, .f32⟩ : BufTy).Contents (Elt F)) (bias : (⟨S10, .f32⟩ : BufTy).Contents (Elt F)) : (⟨S100000x10, .f32⟩ : BufTy).Contents (Elt F) :=
  addf (Host.scatterAdd scatter_S100000x10_S1600000x1_S1600000x10_1_0_0_1
      (broadcastInDim S100000x10 ![] bcast_S_S100000x10 (constant S_ .f32 0x00000000#32))
      (broadcastInDim S1600000x1 ![0] bcast_S1600000_S1600000x1_0 dst)
      (mulf (broadcastInDim S1600000x10 ![0, 1] bcast_S1600000x1_S1600000x10_0_1 (broadcastInDim S1600000x1 ![0] bcast_S1600000_S1600000x1_0 wgt))
        (Host.gather gather_S100000x10_S1600000x1_S1600000x10_1_0_n_n_0_1_110 S (edgeSource src))))
    (broadcastInDim S100000x10 ![0, 1] bcast_S1x10_S100000x10_0_1 (broadcastInDim S1x10 ![1] bcast_S10_S1x10_1 bias))

/-- The whole reference as one function of its eight arguments. -/
def out (x : (⟨S100000x512, .f32⟩ : BufTy).Contents (Elt F)) (src dst : (⟨S1600000, .i32⟩ : BufTy).Contents (Elt F))
    (wgt : (⟨S1600000, .f32⟩ : BufTy).Contents (Elt F)) (w1 : (⟨S512x128, .f32⟩ : BufTy).Contents (Elt F))
    (b1 : (⟨S128, .f32⟩ : BufTy).Contents (Elt F)) (w2 : (⟨S128x10, .f32⟩ : BufTy).Contents (Elt F))
    (b2 : (⟨S10, .f32⟩ : BufTy).Contents (Elt F)) : (⟨S100000x10, .f32⟩ : BufTy).Contents (Elt F) :=
  gatherScale10
    (Host.dotGeneral dot_S100000x128_S128x10_S100000x10_1_0_0_1_n_n none
      (hidden (gatherScale128 (Host.dotGeneral dot_S100000x512_S512x128_S100000x128_1_0_0_1_n_n none x w1) src dst wgt) b1) w2)
    src dst wgt b2

/-- The reference's run, its result at `out` of the launch contents of the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.ReferenceIdeal.Value.run m ρ

/-! ## The two dense projections at an index -/

abbrev DR2 := dot_S100000x128_S128x10_S100000x10_1_0_0_1_n_n

/-- The first projection at (r, c): the sum over k of x (r, k) · w1 (k, c). -/
theorem proj1_apply (x : FVec Ideal S100000x512 .f32) (w1 : FVec Ideal S512x128 .f32) (i : S100000x128.Idx) :
    Host.dotGeneral (F := Ideal) dot_S100000x512_S512x128_S100000x128_1_0_0_1_n_n none x w1 i
      = ∑ k : Fin 512, x (Read.lidx_main_v0 i k) * w1 (Read.ridx_main_v0 i k) :=
  Read.val_main_v0_apply x w1 i

/-- The second projection at (r, c), for any left operand: the sum over k of H (r, k) · w2 (k, c). -/
theorem proj2_apply (H : FVec Ideal S100000x128 .f32) (w2 : FVec Ideal S128x10 .f32) (i : S100000x10.Idx) :
    Host.dotGeneral (F := Ideal) DR2 none H w2 i = ∑ k : Fin 128, H (Read.lidx_main_v18 i k) * w2 (Read.ridx_main_v18 i k) := by
  simp only [Host.dotGeneral]
  rw [Ideal.dotGeneral_apply, ← Equiv.sum_comp (ValueIdx.contrEquiv1 DR2 128 rfl rfl).symm]
  refine Finset.sum_congr rfl fun k _ => ?_
  have hk := ValueIdx.contrEquiv1_symm_val DR2 128 rfl rfl k
  have el : DR2.lhsIdx i ((ValueIdx.contrEquiv1 DR2 128 rfl rfl).symm k) = Read.lidx_main_v18 i k := funext fun a => Fin.ext (by
    match a with
    | ⟨0, _⟩ => exact Read.lhs_main_v18_0 _ _
    | ⟨1, _⟩ => exact (Read.lhs_main_v18_1 _ _).trans hk)
  have er : DR2.rhsIdx i ((ValueIdx.contrEquiv1 DR2 128 rfl rfl).symm k) = Read.ridx_main_v18 i k := funext fun a => Fin.ext (by
    match a with
    | ⟨0, _⟩ => exact (Read.rhs_main_v18_0 _ _).trans hk
    | ⟨1, _⟩ => exact Read.rhs_main_v18_1 _ _)
  rw [el, er]

/-- The hidden layer at (r, k): the aggregate there plus the bias at k, cut below at zero. -/
theorem hidden_apply (A : FVec Ideal S100000x128 .f32) (b1 : FVec Ideal S128 .f32) (i : S100000x128.Idx) :
    hidden (F := Ideal) A b1 i = max (A i + b1 (Read.idx_main_v14 (Read.idx_main_v15 i))) (Ideal.ofBits .f32 0x00000000#32) := by
  show max (A i + Read.val_main_v15 (F := Ideal) b1 i) (Read.val_main_call0_v0 (F := Ideal) i) = _
  rw [Read.val_main_v15_apply, Read.val_main_v14_apply, Read.val_main_call0_v0_apply, Read.val_main_call0_cst_apply]
  rfl

end Cert.ReferenceIdeal.RefValue

end
-- ==== Proof.Bridge.lean ====
/-
  The kernel program and the reference are one function of their arguments over the extended reals.
  Piece by piece: the per-edge source indices are the same term; each aggregation differs only in the order of the
  two factors of the per-edge product, and multiplication of extended reals commutes (no finiteness is needed);
  the matrix unit's product of a row block into a zero accumulator, tile after tile, is the host's dot product of the
  whole arrays, both being at (r, c) the sum over k of the products; and the kernel's "add the bias row, maximum
  with zero" is the reference's bias broadcast and rectifier, entry by entry.
-/
import proofs.«128552_j70961449665143_2_alg».proof.Proof.KernelValue
import proofs.«128552_j70961449665143_2_alg».proof.Proof.RefSide

set_option maxRecDepth 16384

noncomputable section

namespace Cert.Bridge

open Idealize.ShloMosaic Idealize.ShloMosaic.TcCoe Idealize.SL.Sem Idealize.ShloMosaic.ValueIdx

/-- The entrywise product of two arrays of extended reals commutes. -/
theorem mulf_comm {s : Shape} (a b : FVec Ideal s .f32) : mulf a b = mulf b a := funext fun i => mul_comm (a i) (b i)

theorem edgeSource_eq (src : (⟨Cert.KernelIdeal.S1600000, .i32⟩ : BufTy).Contents (Elt Ideal)) :
    Cert.KernelIdeal.HostSide.edgeSource (F := Ideal) src = Cert.ReferenceIdeal.RefValue.edgeSource (F := Ideal) src := rfl

/-- The first aggregation: the kernel program's "row times weight" is the reference's "weight times row". -/
theorem gatherScale128_eq (S : FVec Ideal Cert.KernelIdeal.S100000x128 .f32) (src dst : (⟨Cert.KernelIdeal.S1600000, .i32⟩ : BufTy).Contents (Elt Ideal))
    (wgt : FVec Ideal Cert.KernelIdeal.S1600000 .f32) :
    Cert.KernelIdeal.HostSide.gatherScale128 (F := Ideal) S src dst wgt = Cert.ReferenceIdeal.RefValue.gatherScale128 (F := Ideal) S src dst wgt := by
  unfold Cert.KernelIdeal.HostSide.gatherScale128 Cert.ReferenceIdeal.RefValue.gatherScale128
  rw [mulf_comm]
  rfl

/-- The second aggregation likewise, the output bias added on both sides. -/
theorem gatherScale10_eq (S : FVec Ideal Cert.KernelIdeal.S100000x10 .f32) (src dst : (⟨Cert.KernelIdeal.S1600000, .i32⟩ : BufTy).Contents (Elt Ideal))
    (wgt : FVec Ideal Cert.KernelIdeal.S1600000 .f32) (bias : FVec Ideal Cert.KernelIdeal.S10 .f32) :
    Cert.KernelIdeal.HostSide.gatherScale10 (F := Ideal) S src dst wgt bias = Cert.ReferenceIdeal.RefValue.gatherScale10 (F := Ideal) S src dst wgt bias := by
  unfold Cert.KernelIdeal.HostSide.gatherScale10 Cert.ReferenceIdeal.RefValue.gatherScale10
  rw [mulf_comm]
  rfl

/-- The first region's array is the reference's first dot product. -/
theorem rowsTimes_eq (x : FVec Ideal Cert.KernelIdeal.S100000x512 .f32) (w1 : FVec Ideal Cert.KernelIdeal.S512x128 .f32) :
    Cert.KernelIdeal.Region0.rowsTimes x w1
      = Host.dotGeneral (F := Ideal) Cert.ReferenceIdeal.dot_S100000x512_S512x128_S100000x128_1_0_0_1_n_n none x w1 :=
  funext fun i => (Cert.ReferenceIdeal.RefValue.proj1_apply x w1 i).symm

/-- The second region's array is the reference's second dot product of its hidden layer. -/
theorem biasReluTimes_eq (A : FVec Ideal Cert.KernelIdeal.S100000x128 .f32) (b1 : FVec Ideal Cert.KernelIdeal.S128 .f32)
    (w2 : FVec Ideal Cert.KernelIdeal.S128x10 .f32) :
    Cert.KernelIdeal.Region1.biasReluTimes A b1 w2
      = Host.dotGeneral (F := Ideal) (φ₁ := .f32) (φ₂ := .f32) Cert.ReferenceIdeal.RefValue.DR2 none
          (Cert.ReferenceIdeal.RefValue.hidden (F := Ideal) A b1) w2 := by
  funext i
  rw [Cert.ReferenceIdeal.RefValue.proj2_apply]
  unfold Cert.KernelIdeal.Region1.biasReluTimes
  refine Finset.sum_congr rfl fun k _ => ?_
  rw [Cert.ReferenceIdeal.RefValue.hidden_apply]
  have e1 : (ix2 (⟨(i 0).val, (i 0).isLt⟩ : Fin 100000) k : Cert.KernelIdeal.S100000x128.Idx) = Cert.ReferenceIdeal.Read.lidx_main_v18 i k :=
    funext fun a => by match a with | ⟨0, _⟩ => rfl | ⟨1, _⟩ => rfl
  have e2 : (ix2 k (⟨(i 1).val, (i 1).isLt⟩ : Fin 10) : Cert.KernelIdeal.S128x10.Idx) = Cert.ReferenceIdeal.Read.ridx_main_v18 i k :=
    funext fun a => by match a with | ⟨0, _⟩ => rfl | ⟨1, _⟩ => rfl
  have e3 : (ix1 k : Cert.KernelIdeal.S128.Idx)
      = Cert.ReferenceIdeal.Read.idx_main_v14 (Cert.ReferenceIdeal.Read.idx_main_v15 (Cert.ReferenceIdeal.Read.lidx_main_v18 i k)) :=
    funext fun a => by match a with | ⟨0, _⟩ => rfl
  rw [e1, e2, e3]

/-- The two programs are one function of the eight arguments. -/
theorem out_eq (x : FVec Ideal Cert.KernelIdeal.S100000x512 .f32) (src dst : (⟨Cert.KernelIdeal.S1600000, .i32⟩ : BufTy).Contents (Elt Ideal))
    (wgt : FVec Ideal Cert.KernelIdeal.S1600000 .f32) (w1 : FVec Ideal Cert.KernelIdeal.S512x128 .f32) (b1 : FVec Ideal Cert.KernelIdeal.S128 .f32)
    (w2 : FVec Ideal Cert.KernelIdeal.S128x10 .f32) (b2 : FVec Ideal Cert.KernelIdeal.S10 .f32) :
    Cert.KernelIdeal.Whole.out x src dst wgt w1 b1 w2 b2 = Cert.ReferenceIdeal.RefValue.out (F := Ideal) x src dst wgt w1 b1 w2 b2 := by
  unfold Cert.KernelIdeal.Whole.out Cert.ReferenceIdeal.RefValue.out
  rw [gatherScale10_eq, biasReluTimes_eq, gatherScale128_eq, rowsTimes_eq]

end Cert.Bridge

end
-- ==== Proof.lean ====
/-
  A two-layer graph convolution: project the node features, gather each edge's source row, scale it by the edge
  weight and add it into the destination row; add a bias and cut below at zero; project again, aggregate again, add
  the output bias. The kernel program runs the two projections as tiled grid regions (25 row blocks of 4000) between
  stretches of host operations; the reference runs everything on the host. Over the extended reals both end with the
  same [100000, 10] array: each region's tiles assemble into the host's dot product (a sum over the contracted
  coordinate, entry by entry), the format changes are identities, and the only algebraic law used between the two
  sides is that multiplication commutes. The three frame claims are the generated frames (the reference's is its run
  with the result dropped); the idealization rewrote nothing, so its claim is trivial.
-/
import proofs.«128552_j70961449665143_2_alg».proof.Defs
import proofs.«128552_j70961449665143_2_alg».proof.Proof.Gen.Kernel
import proofs.«128552_j70961449665143_2_alg».proof.Proof.Gen.Kernel.Frame
import proofs.«128552_j70961449665143_2_alg».proof.Proof.Gen.KernelIdeal
import proofs.«128552_j70961449665143_2_alg».proof.Proof.Gen.KernelIdeal.Frame
import proofs.«128552_j70961449665143_2_alg».proof.Proof.Gen.ReferenceIdeal
import proofs.«128552_j70961449665143_2_alg».proof.Proof.Gen.ReferenceIdeal.Run
import proofs.«128552_j70961449665143_2_alg».proof.Proof.Gen.Pre_finite_inputs
import proofs.«128552_j70961449665143_2_alg».proof.Proof.KernelRun
import proofs.«128552_j70961449665143_2_alg».proof.Proof.KernelValue
import proofs.«128552_j70961449665143_2_alg».proof.Proof.RefSide
import proofs.«128552_j70961449665143_2_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result at the reference's function of the arguments: the kernel program's
    final contents are its own function `Whole.out` of them, which is the reference's `RefValue.out`; the reference's
    arguments are the kernel program's by hypothesis. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.result_eq m ρ c), (h c).2⟩)
      (Cert.KernelIdeal.RunValue.run_W5 (F := Ideal) m ρ)
  · refine (θ_run Cert.ReferenceIdeal.defs _ _).mono (fun _ h c => ⟨(h c).1.trans ?_, (h c).2⟩)
      (Cert.ReferenceIdeal.RefValue.run (F := Ideal) m' ρ')
    obtain ⟨h0, h1, h2, h3, h4, h5, h6, h7⟩ := hagree c
    rw [h0, h1, h2, h3, h4, h5, h6, h7]
    exact (Cert.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
